-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S200 : Shape := ⟨1, ![200]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S200 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S200 : Shape := ⟨1, ![200]⟩
abbrev S100x2 : Shape := ⟨2, ![100, 2]⟩
abbrev S100x1 : Shape := ⟨2, ![100, 1]⟩
abbrev S100 : Shape := ⟨1, ![100]⟩
abbrev S_ : Shape := ⟨0, ![]⟩
abbrev S100x512 : Shape := ⟨2, ![100, 512]⟩
abbrev S50x2 : Shape := ⟨2, ![50, 2]⟩

abbrev nBuf : Space → Nat
  | .hbm => 27
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S200, .i32⟩
  | .hbm, ⟨2, _⟩ => ⟨S100x2, .i32⟩
  | .hbm, ⟨3, _⟩ => ⟨S100x1, .i32⟩
  | .hbm, ⟨4, _⟩ => ⟨S100, .i32⟩
  | .hbm, ⟨5, _⟩ => ⟨S100x1, .i32⟩
  | .hbm, ⟨6, _⟩ => ⟨S100, .i32⟩
  | .hbm, ⟨7, _⟩ => ⟨S_, .i32⟩
  | .hbm, ⟨8, _⟩ => ⟨S100, .i32⟩
  | .hbm, ⟨9, _⟩ => ⟨S100, .i1⟩
  | .hbm, ⟨10, _⟩ => ⟨S_, .i32⟩
  | .hbm, ⟨11, _⟩ => ⟨S100, .i32⟩
  | .hbm, ⟨12, _⟩ => ⟨S100, .i32⟩
  | .hbm, ⟨13, _⟩ => ⟨S100, .i32⟩
  | .hbm, ⟨14, _⟩ => ⟨S100x1, .i32⟩
  | .hbm, ⟨15, _⟩ => ⟨S100x512, .f32⟩
  | .hbm, ⟨16, _⟩ => ⟨S_, .i32⟩
  | .hbm, ⟨17, _⟩ => ⟨S100, .i32⟩
  | .hbm, ⟨18, _⟩ => ⟨S100, .i1⟩
  | .hbm, ⟨19, _⟩ => ⟨S_, .i32⟩
  | .hbm, ⟨20, _⟩ => ⟨S100, .i32⟩
  | .hbm, ⟨21, _⟩ => ⟨S100, .i32⟩
  | .hbm, ⟨22, _⟩ => ⟨S100, .i32⟩
  | .hbm, ⟨23, _⟩ => ⟨S100x1, .i32⟩
  | .hbm, ⟨24, _⟩ => ⟨S100x512, .f32⟩
  | .hbm, ⟨25, _⟩ => ⟨S100, .f32⟩
  | .hbm, ⟨26, _⟩ => ⟨S50x2, .f32⟩
  | .local _ .vmem, ⟨0, _⟩ => ⟨S100x512, .f32⟩
  | .local _ .vmem, ⟨1, _⟩ => ⟨S100x512, .f32⟩
  | .local _ .vmem, ⟨2, _⟩ => ⟨S100, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S100x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S200_S100x2 : S200.ShapeCasts S100x2
  slices_S100x2_S100x1_0_0 : S100x2.Slices ![0, 0] S100x1
  shapeCasts_S100x1_S100 : S100x1.ShapeCasts S100
  slices_S100x2_S100x1_0_1 : S100x2.Slices ![0, 1] S100x1
  bcast_S_S100 : S_.BroadcastsInDim S100 (![] : Fin 0 → Fin S100.rank)
  bcast_S100_S100x1_0 : S100.BroadcastsInDim S100x1 (![0] : Fin 1 → Fin S100x1.rank)
  inb_S100x512_S100x512_0_0 : ∀ a, (![0, 0] : Fin 2 → Nat) a + S100x512.size a ≤ S100x512.size a
  h_S100x512 : 0 < S100x512.numel
  shapeCasts_S100x512_S100x512 : S100x512.ShapeCasts S100x512
  reduces_S100x512_S100 : S100x512.Reduces [1] S100
  inb_S100_S100_0 : ∀ a, (![0] : Fin 1 → Nat) a + S100.size a ≤ S100.size a
  h_S100 : 0 < S100.numel
  shapeCasts_S100_S50x2 : S100.ShapeCasts S50x2
  gather_S4096x512_S100x1_S100x512_1_0_n_n_0_1_1512_wf : GatherDims.WF S4096x512 S100x1 S100x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x512.size a ≤ S100x512.size a
  hwx0_0 : ∀ i : grid0.Coords, EltTy.bits .f32 = 32 ∨ (Rect.block (s := S100x512) S100x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x512.size a ≤ S100x512.size a
  hwx0_1 : ∀ i : grid0.Coords, EltTy.bits .f32 = 32 ∨ (Rect.block (s := S100x512) S100x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)

variable [Facts₀]

def gather_S4096x512_S100x1_S100x512_1_0_n_n_0_1_1512 : GatherDims S4096x512 S100x1 S100x512 where
  offsetDims := [1]
  collapsedSliceDims := [0]
  operandBatchingDims := []
  startIndicesBatchingDims := []
  startIndexMap := [0]
  indexVectorDim := 1
  sliceSizes := ![1, 512]
  wf := gather_S4096x512_S100x1_S100x512_1_0_n_n_0_1_1512_wf

abbrev win0_0 : Pipeline.Window sig grid0 :=
  Pipeline.Window.ofSpec (Memref.whole main_v11) S100x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S100x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S100.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S200 : Shape := ⟨1, ![200]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S100x2 : Shape := ⟨2, ![100, 2]⟩
abbrev S100x1 : Shape := ⟨2, ![100, 1]⟩
abbrev S100 : Shape := ⟨1, ![100]⟩
abbrev S50x2 : Shape := ⟨2, ![50, 2]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S200, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S100x2, .i32⟩
  | .hbm, ⟨21, _⟩ => ⟨S100x1, .i32⟩
  | .hbm, ⟨22, _⟩ => ⟨S100, .i32⟩
  | .hbm, ⟨23, _⟩ => ⟨S100x1, .i32⟩
  | .hbm, ⟨24, _⟩ => ⟨S100, .i32⟩
  | .hbm, ⟨25, _⟩ => ⟨S_, .i32⟩
  | .hbm, ⟨26, _⟩ => ⟨S100, .i32⟩
  | .hbm, ⟨27, _⟩ => ⟨S100, .i1⟩
  | .hbm, ⟨28, _⟩ => ⟨S_, .i32⟩
  | .hbm, ⟨29, _⟩ => ⟨S100, .i32⟩
  | .hbm, ⟨30, _⟩ => ⟨S100, .i32⟩
  | .hbm, ⟨31, _⟩ => ⟨S100, .i32⟩
  | .hbm, ⟨32, _⟩ => ⟨S_, .i32⟩
  | .hbm, ⟨33, _⟩ => ⟨S100, .i32⟩
  | .hbm, ⟨34, _⟩ => ⟨S100, .i1⟩
  | .hbm, ⟨35, _⟩ => ⟨S_, .i32⟩
  | .hbm, ⟨36, _⟩ => ⟨S100, .i32⟩
  | .hbm, ⟨37, _⟩ => ⟨S100, .i32⟩
  | .hbm, ⟨38, _⟩ => ⟨S100, .i32⟩
  | .hbm, ⟨39, _⟩ => ⟨S100x1, .i32⟩
  | .hbm, ⟨40, _⟩ => ⟨S100x1, .i32⟩
  | .hbm, ⟨41, _⟩ => ⟨S100x2, .i32⟩
  | .hbm, ⟨42, _⟩ => ⟨S100, .f32⟩
  | .hbm, ⟨43, _⟩ => ⟨S50x2, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  shapeCasts_S200_S100x2 : S200.ShapeCasts S100x2
  slices_S100x2_S100x1_0_0 : S100x2.Slices ![0, 0] S100x1
  shapeCasts_S100x1_S100 : S100x1.ShapeCasts S100
  slices_S100x2_S100x1_0_1 : S100x2.Slices ![0, 1] S100x1
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  shapeCasts_S100_S50x2 : S100.ShapeCasts S50x2
  dot_S4096x512_S512x4096_S4096x4096_1_0_0_1_n_n_wf : DotDims.WF S4096x512 S512x4096 S4096x4096 [1] [0] [0] [1] [] []
  gather_S4096x4096_S100x2_S100_n_01_n_n_01_1_11_wf : GatherDims.WF S4096x4096 S100x2 S100 [] [0, 1] [] [0, 1] [] 1 ![1, 1]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x4096_S100x2_S100_n_01_n_n_01_1_11 : GatherDims S4096x4096 S100x2 S100 where
  offsetDims := []
  collapsedSliceDims := [0, 1]
  operandBatchingDims := []
  startIndicesBatchingDims := []
  startIndexMap := [0, 1]
  indexVectorDim := 1
  sliceSizes := ![1, 1]
  wf := gather_S4096x4096_S100x2_S100_n_01_n_n_01_1_11_wf

class Facts : Prop extends Facts₀ where

variable [Facts]
-- ==== Proof.Distance.lean ====
/-
  The Euclidean distance between two rows of a table, and the two ways its square is spelt.

  A table `X` has 4096 rows of 512 entries. A start word (a signed 32-bit integer) names the row it is clamped to:
  negative words name row 0, words above 4095 name row 4095 (`row`). Pair `p` of a list of 100 pairs of start words
  `(r0 p, r1 p)` has the distance
      sqrt (sum over k of (X[row (r0 p), k] - X[row (r1 p), k])^2),
  and the result lists those 100 distances as a 50 x 2 array, entry `(a, b)` holding pair `2 a + b` (`dist`).

  One side of the certificate computes the sum of squared differences directly; the other expands it,
      |u|^2 + |v|^2 - 2 <u, v>,   cut off below at 0,
  each norm and the inner product a sum over the 512 columns. For REAL entries the two are one number: the expansion is
  the binomial formula term by term (`sum_sq_sub`), and a sum of squares is not negative, so cutting off at 0 changes
  nothing (`gram_radicand`). On the extended reals the expansion is not an identity (a row holding an infinity gives
  `inf - inf`), which is why the law is stated for entries that are coercions of reals.
-/
import Idealize.ShloMosaic.PureOps.Ideal
import Idealize.ShloMosaic.PureOps.Ideal.Laws
import Idealize.ShloMosaic.Lib.ValueIdx

noncomputable section

open scoped BigOperators

namespace Cert.PairDistance

open Idealize.ShloMosaic Idealize.ShloMosaic.ValueIdx

/-! ## The one float constant that is not zero -/

/-- The pattern of `2.0` denotes the real number 2. -/
theorem ofBits_two : Ideal.ofBits .f32 0x40000000#32 = ((2 : ℝ) : EReal) := by
  simp [Ideal.ofBits, Ideal.ieee, -EReal.coe_mul]; norm_num

/-! ## Sums of reals inside the extended reals -/

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The binomial formula, summed: the squared distance of two real vectors is the sum of their squared norms less twice
    their inner product. -/
theorem sum_sq_sub {ι : Type*} [Fintype ι] (a b : ι → ℝ) :
    ∑ k, (a k - b k) * (a k - b k) = (∑ k, a k * a k) + (∑ k, b k * b k) - 2 * ∑ k, a k * b k := by
  rw [Finset.mul_sum, ← Finset.sum_add_distrib, ← Finset.sum_sub_distrib]
  exact Finset.sum_congr rfl fun k _ => by ring

/-- The same on the extended reals, for vectors of reals, in the spelling the expanded side has: each squared norm
    summed from an initial `0`, the inner product doubled, the difference cut off below at `0`. The cut-off is idle
    because the value is a sum of squares. -/
theorem gram_radicand {ι : Type*} [Fintype ι] (a b : ι → ℝ) :
    max ((((0 : EReal) + ∑ k, (a k : EReal) * (a k : EReal)) + ((0 : EReal) + ∑ k, (b k : EReal) * (b k : EReal)))
        - ((2 : ℝ) : EReal) * ∑ k, (a k : EReal) * (b k : EReal)) 0
      = ∑ k, ((a k : EReal) - (b k : EReal)) * ((a k : EReal) - (b k : EReal)) := by
  have haa : ∑ k, (a k : EReal) * (a k : EReal) = ((∑ k, a k * a k : ℝ) : EReal) := by
    rw [coe_sum]; exact Finset.sum_congr rfl fun k _ => (EReal.coe_mul _ _).symm
  have hbb : ∑ k, (b k : EReal) * (b k : EReal) = ((∑ k, b k * b k : ℝ) : EReal) := by
    rw [coe_sum]; exact Finset.sum_congr rfl fun k _ => (EReal.coe_mul _ _).symm
  have hab : ∑ k, (a k : EReal) * (b k : EReal) = ((∑ k, a k * b k : ℝ) : EReal) := by
    rw [coe_sum]; exact Finset.sum_congr rfl fun k _ => (EReal.coe_mul _ _).symm
  have hdd : ∑ k, ((a k : EReal) - (b k : EReal)) * ((a k : EReal) - (b k : EReal))
      = ((∑ k, (a k - b k) * (a k - b k) : ℝ) : EReal) := by
    rw [coe_sum]; exact Finset.sum_congr rfl fun k _ => by rw [EReal.coe_mul, EReal.coe_sub]
  rw [zero_add, zero_add, haa, hbb, hab, hdd, ← EReal.coe_add, ← EReal.coe_mul, ← EReal.coe_sub, ← sum_sq_sub]
  exact max_eq_left (EReal.coe_nonneg.mpr (Finset.sum_nonneg fun k _ => mul_self_nonneg _))

/-! ## The rows and the distances -/

/-- The row of the table a start word names: the word read as a signed integer, clamped into `0 … 4095`. -/
def row (w : BitVec 32) : Fin 4096 := ⟨min w.toInt.toNat 4095, by omega⟩

/-- Entry `(a, b)` of the 50 x 2 result is pair number `2 a + b`. -/
def pairOf (i : (⟨2, ![50, 2]⟩ : Shape).Idx) : Fin 100 :=
  ⟨(i 0).val * 2 + (i 1).val, by have h0 := idx2_lt0 i; have h1 := idx2_lt1 i; omega⟩

/-- The squared distance of rows `p` and `q` of the table: the sum over the columns of the squared differences. -/
def sqDist (X : (⟨2, ![4096, 512]⟩ : Shape).Idx → EReal) (p q : Fin 4096) : EReal :=
  ∑ k : Fin 512, (X (ix2 p k) - X (ix2 q k)) * (X (ix2 p k) - X (ix2 q k))

/-- THE RESULT: entry `i` of the 50 x 2 array is the distance between the two rows of `X` that pair `pairOf i` of the start
    words `r0`, `r1` names. -/
def dist (X : (⟨2, ![4096, 512]⟩ : Shape).Idx → EReal) (r0 r1 : (⟨1, ![100]⟩ : Shape).Idx → BitVec 32) :
    (⟨2, ![50, 2]⟩ : Shape).Idx → EReal := fun i =>
  Ideal.sqrt (sqDist X (row (r0 (ix1 (pairOf i)))) (row (r1 (ix1 (pairOf i)))))

/-- For a table of reals, the expanded spelling of the squared distance of rows `p` and `q` — both squared norms summed
    from `0`, twice the inner product taken off, the result cut off at `0` — is the squared distance. -/
theorem gram_eq_sqDist (x : (⟨2, ![4096, 512]⟩ : Shape).Idx → ℝ) (p q : Fin 4096) :
    max ((((0 : EReal) + ∑ k : Fin 512, (x (ix2 p k) : EReal) * (x (ix2 p k) : EReal))
          + ((0 : EReal) + ∑ k : Fin 512, (x (ix2 q k) : EReal) * (x (ix2 q k) : EReal)))
        - ((2 : ℝ) : EReal) * ∑ k : Fin 512, (x (ix2 p k) : EReal) * (x (ix2 q k) : EReal)) 0
      = sqDist (fun i => (x i : EReal)) p q :=
  gram_radicand (fun k : Fin 512 => x (ix2 p k)) (fun k : Fin 512 => x (ix2 q k))

end Cert.PairDistance

end
-- ==== Proof.KernelPayload.lean ====
/-
  What the kernel body stores, entry by entry.

  The body loads two 100 x 512 arrays `A` and `B`, subtracts them, squares the differences, adds each row up along its
  512 columns and takes the square root: entry `p` of the stored vector is
      sqrt (sum over k of (A[p, k] - B[p, k])^2).
  The row sum is a lane reduction from the neutral accumulator, which on the extended reals is the plain sum of the row
  (no rounding, no order); the source index of column `k` over result row `p` is `(p, k)`.
-/
import proofs.«159841_j63642825392501_2_alg».proof.Proof.Gen.KernelIdeal.Skeleton
import proofs.«159841_j63642825392501_2_alg».proof.Proof.Distance
import Idealize.ShloMosaic.Lib.Pipeline.Value
import Idealize.ShloMosaic.PureOps.Ideal.Laws

noncomputable section

open scoped BigOperators

namespace Cert.PairDistance

open Idealize.ShloMosaic Idealize.ShloMosaic.ValueIdx Cert.KernelIdeal Cert.KernelIdeal.Gen

/-- A lane sum of a 100 x 512 array along its columns, read at row `p`: the sum of the row. -/
theorem rowSum_apply (src : FVec Ideal S100x512 .f32) (hφ : FKind.Formats FTy.f32)
    (hacc : (0x00000000#32 : BitVec FTy.f32.bits) = FKind.add.neutral FTy.f32 hφ) (p : Fin 100) :
    multiReduction .add [1] S100 src 0x00000000#32 reduces_S100x512_S100 hφ hacc (ix1 p)
      = ∑ k : Fin 512, src (ix2 p k) := by
  refine (Ideal.multiReduction_add_single src 0x00000000#32 reduces_S100x512_S100 hφ hacc (ix1 p)).trans ?_
  refine Finset.sum_congr rfl fun k _ => congrArg src ?_
  funext c; refine Fin.ext ?_
  match c with
  | ⟨0, _⟩ => rfl
  | ⟨1, _⟩ => rfl

/-- THE STORED VECTOR AT `p`: the square root of the sum, over the columns, of the squared differences of rows `p` of
    the two loaded arrays. -/
theorem payload_apply (A B : S100x512.Idx → EReal) (p : Fin 100) :
    k0_pay1 (F := Ideal) A B (ix1 p)
      = Ideal.sqrt (∑ k : Fin 512, (A (ix2 p k) - B (ix2 p k)) * (A (ix2 p k) - B (ix2 p k))) := by
  unfold k0_pay1
  refine congrArg Ideal.sqrt ?_
  refine (rowSum_apply _ _ _ p).trans ?_
  simp only [shapeCast_self]
  rfl

end Cert.PairDistance

end
-- ==== Proof.RowGather.lean ====
/-
  Gathering whole rows of the table: the gather that picks, for each of 100 start words, one row of 512 entries.

  Its dimension numbers collapse the row axis (a slice of one row), keep the column axis as the result's second axis,
  and read one start word per result row. Result entry `(p, k)` is therefore the table's entry in column `k` of the row
  that start word `p` names — the word read signed and clamped so that the one-row slice stays inside the table
  (`Cert.PairDistance.row`).
-/
import proofs.«159841_j63642825392501_2_alg».proof.KernelIdeal
import proofs.«159841_j63642825392501_2_alg».proof.Proof.Distance

noncomputable section

namespace Cert.PairDistance

open Idealize.ShloMosaic Idealize.ShloMosaic.ValueIdx Cert.KernelIdeal

variable [Cert.KernelIdeal.Facts₀]

/-- THE ROW GATHER AT `(p, k)`: column `k` of the row the start word `idx (p, 0)` names. On the row axis the operand index
    is the clamped start (nothing batched, the axis collapsed); on the column axis it is the result's own column (the
    start map does not name that axis, the slice is the whole row). -/
theorem rowGather_apply {α : Type} (x : S4096x512.Idx → α) (idx : IVec S100x1 32) (p : Fin 100) (k : Fin 512) :
    Host.gather gather_S4096x512_S100x1_S100x512_1_0_n_n_0_1_1512 x idx (ix2 p k)
      = x (ix2 (row (idx (ix2 p (0 : Fin 1)))) k) := by
  unfold Host.gather
  congr 1
  funext a
  refine Fin.ext ?_
  match a with
  | ⟨0, _⟩ =>
    show gather_S4096x512_S100x1_S100x512_1_0_n_n_0_1_1512.start (ix2 p k) idx 0
        + gather_S4096x512_S100x1_S100x512_1_0_n_n_0_1_1512.batchCoord (ix2 p k) 0
        + gather_S4096x512_S100x1_S100x512_1_0_n_n_0_1_1512.offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x512_S100x1_S100x512_1_0_n_n_0_1_1512.startIndexMap from
      List.mem_singleton.mpr rfl)]
    have hsi : gather_S4096x512_S100x1_S100x512_1_0_n_n_0_1_1512.siIdx (ix2 p k)
        ⟨List.idxOf (0 : Fin 2) gather_S4096x512_S100x1_S100x512_1_0_n_n_0_1_1512.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S4096x512_S100x1_S100x512_1_0_n_n_0_1_1512.start (ix2 p k) idx 1
        + gather_S4096x512_S100x1_S100x512_1_0_n_n_0_1_1512.batchCoord (ix2 p k) 1
        + gather_S4096x512_S100x1_S100x512_1_0_n_n_0_1_1512.offCoord (ix2 p k) 1 = k.val
    rw [GatherDims.batchCoord_eq_zero _ _ _ List.not_mem_nil]
    have hst : gather_S4096x512_S100x1_S100x512_1_0_n_n_0_1_1512.start (ix2 p k) idx 1 = 0 := by
      unfold GatherDims.start
      rw [dif_neg (show (1 : Fin 2) ∉ gather_S4096x512_S100x1_S100x512_1_0_n_n_0_1_1512.startIndexMap from
        fun h => absurd (List.mem_singleton.mp h) (by decide))]
    rw [hst]
    simp only [Nat.add_zero, Nat.zero_add]
    unfold GatherDims.offCoord
    rw [dif_pos (show (1 : Fin 2) ∈ gather_S4096x512_S100x1_S100x512_1_0_n_n_0_1_1512.sKept from
      (GatherDims.mem_sKept _ _).mpr ⟨fun h => absurd (List.mem_singleton.mp h) (by decide), List.not_mem_nil⟩)]
    rfl

end Cert.PairDistance

end
-- ==== Proof.KernelValue.lean ====
/-
  What the kernel's program leaves in its result, entry by entry.

  Before the kernel is launched the program splits the 200 start words into the first and second word of each of the
  100 pairs (the 100 x 2 view's two columns), wraps a negative word once by the table's height (+4096), and gathers,
  for either list of words, the 100 rows of the table they name: two 100 x 512 arrays `A` and `B`. The kernel runs at
  ONE grid point on whole-array blocks: it reads all of `A` and `B` and writes all 100 distances. After it, the list of
  distances is re-laid as the 50 x 2 result.

  So the block the one point writes back is the whole result list, it covers the list, and the result is, entry by
  entry, the distance between the two rows a pair names (`Cert.PairDistance.dist`) — for ANY table, finite or not:
  the kernel's side needs no algebra.
-/
import proofs.«159841_j63642825392501_2_alg».proof.Proof.Gen.KernelIdeal.Frame
import proofs.«159841_j63642825392501_2_alg».proof.Proof.KernelPayload
import proofs.«159841_j63642825392501_2_alg».proof.Proof.RowGather
import Idealize.ShloMosaic.Lib.Pipeline.Value
import Idealize.ShloMosaic.Lib.StableHlo.Run
import Idealize.ShloMosaic.Lib.ValueIdx

noncomputable section

open scoped BigOperators

namespace Cert.PairDistance

open Idealize.ShloMosaic Idealize.ShloMosaic.TcCoe Idealize.ShloMosaic.ValueIdx Idealize.ShloMosaic.StableHlo
open Idealize.SL.Sem
open Cert.KernelIdeal Cert.KernelIdeal.Gen

/-! ## The start words as the program computes them -/

/-- The first word of each pair: column 0 of the words seen as 100 rows of 2. -/
def firstWords (ids : S200.Idx → BitVec 32) : S100.Idx → BitVec 32 :=
  shapeCast S100 (extractStridedSlice S100x1 ![0, 0] (shapeCast S100x2 ids shapeCasts_S200_S100x2) slices_S100x2_S100x1_0_0)
    shapeCasts_S100x1_S100

/-- The second word of each pair: column 1. -/
def secondWords (ids : S200.Idx → BitVec 32) : S100.Idx → BitVec 32 :=
  shapeCast S100 (extractStridedSlice S100x1 ![0, 1] (shapeCast S100x2 ids shapeCasts_S200_S100x2) slices_S100x2_S100x1_0_1)
    shapeCasts_S100x1_S100

/-- A negative word counts rows from the end: it is moved up once by the table's height. -/
def wrapNegative (w : S100.Idx → BitVec 32) : S100.Idx → BitVec 32 :=
  select (cmpi .slt w (broadcastInDim S100 ![] bcast_S_S100 (constantI S_ 32 0#32)))
    (addi w (broadcastInDim S100 ![] bcast_S_S100 (constantI S_ 32 4096#32))) w

variable (m : (ℓ : Loc nD τ sig) → Buf (Elt Ideal) ℓ) (ρ : Dev nD → PrngReg)

/-! ## The two gathered arrays, as the region finds them -/

/-- The first operand of the kernel: the rows of the table the wrapped first words name. -/
theorem gatheredFirst (c : Dev nD) :
    (V m c main_v11 : S100x512.Idx → EReal)
      = Host.gather gather_S4096x512_S100x1_S100x512_1_0_n_n_0_1_1512 (m ((c : Thread nD τ).loc main_arg0))
          (broadcastInDim S100x1 ![0] bcast_S100_S100x1_0 (wrapNegative (firstWords (m ((c : Thread nD τ).loc main_arg1))))) := by
  show StableHlo.after hostOps0 (fun b => m (c, b)) (Proc.devRef .tc main_v11) = _
  after_results
  rfl

/-- The second operand: the rows the wrapped second words name. -/
theorem gatheredSecond (c : Dev nD) :
    (V m c main_v18 : S100x512.Idx → EReal)
      = Host.gather gather_S4096x512_S100x1_S100x512_1_0_n_n_0_1_1512 (m ((c : Thread nD τ).loc main_arg0))
          (broadcastInDim S100x1 ![0] bcast_S100_S100x1_0 (wrapNegative (secondWords (m ((c : Thread nD τ).loc main_arg1))))) := by
  show StableHlo.after hostOps0 (fun b => m (c, b)) (Proc.devRef .tc main_v18) = _
  after_results
  rfl

/-- A list of words as a one-column array, read at `(p, 0)`: word `p`. -/
theorem column_apply (w : S100.Idx → BitVec 32) (p : Fin 100) :
    broadcastInDim S100x1 ![0] bcast_S100_S100x1_0 w (ix2 p (0 : Fin 1)) = w (ix1 p) :=
  broadcastInDim_apply _ bcast_S100_S100x1_0 w (ix2 p (0 : Fin 1)) (ix1 p) (fun a => match a with
    | ⟨0, _⟩ => by show p.val = if (100 : Nat) = 1 then 0 else p.val; rw [if_neg (by decide)])

/-- Entry `(p, k)` of the first operand: column `k` of the table's row that wrapped first word `p` names. -/
theorem gatheredFirst_apply (c : Dev nD) (p : Fin 100) (k : Fin 512) :
    (V m c main_v11 : S100x512.Idx → EReal) (ix2 p k)
      = m ((c : Thread nD τ).loc main_arg0)
          (ix2 (row (wrapNegative (firstWords (m ((c : Thread nD τ).loc main_arg1))) (ix1 p))) k) := by
  rw [gatheredFirst, rowGather_apply, column_apply]

/-- Entry `(p, k)` of the second operand. -/
theorem gatheredSecond_apply (c : Dev nD) (p : Fin 100) (k : Fin 512) :
    (V m c main_v18 : S100x512.Idx → EReal) (ix2 p k)
      = m ((c : Thread nD τ).loc main_arg0)
          (ix2 (row (wrapNegative (secondWords (m ((c : Thread nD τ).loc main_arg1))) (ix1 p))) k) := by
  rw [gatheredSecond, rowGather_apply, column_apply]

/-! ## One grid point, whole-array blocks -/

/-- Every window's block index is zero on every axis at every point of the grid (there is one point). -/
theorem blockIndex_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

theorem offset2_zero : (![0, 0] : Fin 2 → Nat) = fun _ => 0 := funext fun a => by fin_cases a <;> rfl
theorem offset1_zero : (![0] : Fin 1 → Nat) = fun _ => 0 := funext fun a => by fin_cases a; rfl

/-- The first input window's block at the point is the whole first operand. -/
theorem blockFirst (c : Dev nD) (t : Fin cfg0.N) :
    (iblk m c 0 t : S100x512.Idx → EReal) = V m c main_v11 := by
  obtain ⟨e0, e1, -, -, -⟩ := blockIndex_zero t
  funext y
  show V m c main_v11 (((cfg0.win 0).blk t).view.emb y) = V m c main_v11 y
  refine congrArg _ (funext fun a => Fin.ext ?_)
  match a with
  | ⟨0, _⟩ => show win0_0.index t (0 : Fin 2) * 100 + 1 * (y 0).val = (y 0).val; rw [e0]; omega
  | ⟨1, _⟩ => show win0_0.index t (1 : Fin 2) * 512 + 1 * (y 1).val = (y 1).val; rw [e1]; omega

/-- The second input window's block at the point is the whole second operand. -/
theorem blockSecond (c : Dev nD) (t : Fin cfg0.N) :
    (iblk m c 1 t : S100x512.Idx → EReal) = V m c main_v18 := by
  obtain ⟨-, -, e0, e1, -⟩ := blockIndex_zero t
  funext y
  show V m c main_v18 (((cfg0.win 1).blk t).view.emb y) = V m c main_v18 y
  refine congrArg _ (funext fun a => Fin.ext ?_)
  match a with
  | ⟨0, _⟩ => show win0_1.index t (0 : Fin 2) * 100 + 1 * (y 0).val = (y 0).val; rw [e0]; omega
  | ⟨1, _⟩ => show win0_1.index t (1 : Fin 2) * 512 + 1 * (y 1).val = (y 1).val; rw [e1]; omega

/-- The list of distances the body computes from the two whole operands. -/
def distances (c : Dev nD) : S100.Idx → EReal :=
  k0_pay1 (F := Ideal) (V m c main_v11) (V m c main_v18)

/-- WHAT THE POINT WRITES BACK is the (whole-array) block of the list of distances. -/
theorem flushed_eq (c : Dev nD) (t : Fin cfg0.N) :
    (dats m 0 c).flushed 2 t = ((cfg0.win 2).blk t).view.read (Elt Ideal) (distances m c) := by
  show (cfg0.win 2).cut (grid0.coords t) ((dats m 0 c).after 2 t) = _
  rw [after0_2]
  unfold out0_2
  rw [View.canon_unit_zero offset1_zero]
  simp only [View.ld_unit_zero (S := S100x512) offset2_zero]
  obtain ⟨-, -, -, -, e⟩ := blockIndex_zero t
  funext j
  show k0_pay1 (F := Ideal) (iblk m c 0 t) (iblk m c 1 t) j
    = k0_pay1 (F := Ideal) (V m c main_v11) (V m c main_v18) (((cfg0.win 2).blk t).view.emb j)
  rw [blockFirst, blockSecond]
  refine congrArg _ (funext fun a => Fin.ext ?_)
  match a with
  | ⟨0, _⟩ => show (j 0).val = win0_2.index t (0 : Fin 1) * 100 + 1 * (j 0).val; rw [e]; omega

/-- The one point's block covers the whole list. -/
theorem covered (i : S100.Idx) :
    ∃ t : Fin cfg0.N, (cfg0.win 2).flush t = true ∧ i ∈ ((cfg0.win 2).blk t).view.set := by
  refine ⟨t0_0, flush0_2 t0_0, ?_⟩
  obtain ⟨-, -, -, -, e⟩ := blockIndex_zero t0_0
  show i ∈ ((View.whole main_v19).slice (win0_2.rect t0_0)).set
  rw [View.set_slice_whole, Rect.mem_set_unit]
  intro a
  match a with
  | ⟨0, _⟩ =>
    show win0_2.index t0_0 (0 : Fin 1) * 100 ≤ (i 0).val ∧ (i 0).val < win0_2.index t0_0 (0 : Fin 1) * 100 + 100
    have hi : (i 0).val < 100 := (i 0).isLt
    rw [e]; omega

/-- THE RESULT LIST after the region: the list of distances. -/
theorem finalList (c : Dev nD) : (dats m 0 c).arrAt 2 cfg0.N = distances m c :=
  (dats m 0 c).arrAt_eq_of_cover 2 (distances m c) (fun t _ => flushed_eq m c t) covered

/-! ## The lines after the region -/

/-- The program's result: the list of distances re-laid as 50 rows of 2. -/
theorem tail_eq (c : Dev nD) :
    (Pipeline.afterTail₀ cfgs (dats m) 0 (V0 m) [hostOps1] c main_v20 : S50x2.Idx → EReal)
      = shapeCast S50x2 (distances m c) shapeCasts_S100_S50x2 := by
  unfold Pipeline.afterTail₀
  show StableHlo.after hostOps1 _ (Proc.devRef .tc main_v20) = _
  after_results
  exact congrArg (fun v => shapeCast S50x2 v shapeCasts_S100_S50x2)
    ((Pipeline.withArrays_arr spec0 launch0.win.arr_inj c _ _ 2).trans (finalList m c))

/-- Entry `i` of the result is the distance between the two rows pair `pairOf i` names. -/
theorem result_eq_dist (c : Dev nD) :
    shapeCast S50x2 (distances m c) shapeCasts_S100_S50x2
      = dist (m ((c : Thread nD τ).loc main_arg0))
          (wrapNegative (firstWords (m ((c : Thread nD τ).loc main_arg1))))
          (wrapNegative (secondWords (m ((c : Thread nD τ).loc main_arg1)))) := by
  funext i
  refine (shapeCast_apply (distances m c) shapeCasts_S100_S50x2 i (ix1 (pairOf i))
    (by rewrite [Shape.rowMajor_val_one, Shape.rowMajor_val_two]; rfl)).trans ?_
  unfold distances
  rw [payload_apply]
  unfold dist sqDist
  refine congrArg Ideal.sqrt (Finset.sum_congr rfl fun k _ => ?_)
  rw [gatheredFirst_apply, gatheredSecond_apply]

/-! ## The run -/

/-- Every weakly fair execution of the program terminates without a fault, its result at the distances of the rows the
    wrapped start words name, its arguments unchanged. -/
theorem kernel_run :
    θ_run defs (onTc (τ := τ) (main (F := Ideal))) ⟨m, fun _ => 0, ρ⟩ (fun r => ∀ c : Dev nD,
      r.2.mem ((c.tc : Thread nD τ).loc main_v20)
          = dist (m ((c.tc : Thread nD τ).loc main_arg0))
              (wrapNegative (firstWords (m ((c.tc : Thread nD τ).loc main_arg1))))
              (wrapNegative (secondWords (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans
        ((tail_eq m c).trans (result_eq_dist m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.PairDistance

end
-- ==== Proof.PointGather.lean ====
/-
  Gathering single entries of a square array: the gather that picks, for each of 100 pairs of start words, one entry
  of a 4096 x 4096 array.

  Its dimension numbers collapse both axes (a slice of one entry) and read the two start words of a pair as the row
  and the column. Result entry `p` is therefore the array's entry at the row that word `(p, 0)` names and the column
  that word `(p, 1)` names — each read signed and clamped into `0 … 4095`, the same clamp as a row gather's
  (`Cert.PairDistance.row`).
-/
import proofs.«159841_j63642825392501_2_alg».proof.ReferenceIdeal
import proofs.«159841_j63642825392501_2_alg».proof.Proof.Distance

noncomputable section

namespace Cert.PairDistance

open Idealize.ShloMosaic Idealize.ShloMosaic.ValueIdx Cert.ReferenceIdeal

variable [Cert.ReferenceIdeal.Facts₀]

/-- The start word the gather reads for axis 0 of result entry `p` is word `(p, 0)` of the start array. -/
theorem pointGather_si0 (p : Fin 100) (h : List.idxOf (0 : Fin 2) gather_S4096x4096_S100x2_S100_n_01_n_n_01_1_11.startIndexMap < gather_S4096x4096_S100x2_S100_n_01_n_n_01_1_11.startIndexMap.length) :
    gather_S4096x4096_S100x2_S100_n_01_n_n_01_1_11.siIdx (ix1 p) ⟨List.idxOf (0 : Fin 2) gather_S4096x4096_S100x2_S100_n_01_n_n_01_1_11.startIndexMap, h⟩ = ix2 p (0 : Fin 2) := by
  funext b; refine Fin.ext ?_
  match b with
  | ⟨0, _⟩ => rfl
  | ⟨1, _⟩ => rfl

/-- The start word the gather reads for axis 1 of result entry `p` is word `(p, 1)` of the start array. -/
theorem pointGather_si1 (p : Fin 100) (h : List.idxOf (1 : Fin 2) gather_S4096x4096_S100x2_S100_n_01_n_n_01_1_11.startIndexMap < gather_S4096x4096_S100x2_S100_n_01_n_n_01_1_11.startIndexMap.length) :
    gather_S4096x4096_S100x2_S100_n_01_n_n_01_1_11.siIdx (ix1 p) ⟨List.idxOf (1 : Fin 2) gather_S4096x4096_S100x2_S100_n_01_n_n_01_1_11.startIndexMap, h⟩ = ix2 p (1 : Fin 2) := by
  funext b; refine Fin.ext ?_
  match b with
  | ⟨0, _⟩ => rfl
  | ⟨1, _⟩ => rfl

/-- THE POINT GATHER AT `p`: the array's entry at (the row word `(p, 0)` names, the column word `(p, 1)` names). On
    each axis the operand index is the clamped start alone: nothing is batched and both axes are collapsed, so there
    is no offset. -/
theorem pointGather_apply {α : Type} (x : S4096x4096.Idx → α) (idx : IVec S100x2 32) (p : Fin 100) :
    Host.gather gather_S4096x4096_S100x2_S100_n_01_n_n_01_1_11 x idx (ix1 p)
      = x (ix2 (row (idx (ix2 p (0 : Fin 2)))) (row (idx (ix2 p (1 : Fin 2))))) := by
  unfold Host.gather
  congr 1
  funext a
  refine Fin.ext ?_
  match a with
  | ⟨0, _⟩ =>
    show gather_S4096x4096_S100x2_S100_n_01_n_n_01_1_11.start (ix1 p) idx 0 + gather_S4096x4096_S100x2_S100_n_01_n_n_01_1_11.batchCoord (ix1 p) 0 + gather_S4096x4096_S100x2_S100_n_01_n_n_01_1_11.offCoord (ix1 p) 0 = _
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    rw [dif_pos (show (0 : Fin 2) ∈ gather_S4096x4096_S100x2_S100_n_01_n_n_01_1_11.startIndexMap from List.mem_cons_self)]
    rw [pointGather_si0]
    rfl
  | ⟨1, _⟩ =>
    show gather_S4096x4096_S100x2_S100_n_01_n_n_01_1_11.start (ix1 p) idx 1 + gather_S4096x4096_S100x2_S100_n_01_n_n_01_1_11.batchCoord (ix1 p) 1 + gather_S4096x4096_S100x2_S100_n_01_n_n_01_1_11.offCoord (ix1 p) 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    simp only [Nat.add_zero]
    unfold GatherDims.start
    rw [dif_pos (show (1 : Fin 2) ∈ gather_S4096x4096_S100x2_S100_n_01_n_n_01_1_11.startIndexMap from List.mem_cons_of_mem _ (List.mem_singleton.mpr rfl))]
    rw [pointGather_si1]
    rfl

end Cert.PairDistance

end
-- ==== Proof.ReferenceValue.lean ====
/-
  What the reference computes, entry by entry.

  The reference builds the whole 4096 x 4096 matrix of distances between rows of the table by the expanded formula —
  entry `(a, b)` is sqrt (max (|row a|^2 + |row b|^2 - 2 <row a, row b>, 0)), the squared norms one column vector and one
  row vector broadcast against each other, the inner products one matrix product of the table with its transpose — and
  then picks 100 entries of it: pair `p` of the start words gives the row and the column. The start words are laid side
  by side as the two columns of a 100 x 2 array before the pick.

  Read at an entry this is, for a table of reals, the distance between the two rows the pair names
  (`Cert.PairDistance.dist`): the expanded formula is the squared distance (`gram_eq_sqDist`).
-/
import proofs.«159841_j63642825392501_2_alg».proof.Proof.Gen.ReferenceIdeal.Read
import proofs.«159841_j63642825392501_2_alg».proof.Proof.PointGather

noncomputable section

open scoped BigOperators

namespace Cert.PairDistance

open Idealize.ShloMosaic Idealize.ShloMosaic.ValueIdx Cert.ReferenceIdeal Cert.ReferenceIdeal.Read

/-- The squared norm of row `a`: the host's sum over the columns of the squared entries, from the initial value `0`. -/
theorem sqNorm_apply (X : S4096x512.Idx → EReal) (a : Fin 4096) :
    val_main_v1 (F := Ideal) X (ix1 a) = 0 + ∑ k : Fin 512, X (ix2 a k) * X (ix2 a k) := by
  rw [val_main_v1_apply, val_main_cst_apply]
  simp only [val_main_v0_apply, Ideal.ofBits_def, Ideal.ofBits_zero_f32, Ideal.mulf_def]
  refine congrArg (_ + ·) (Finset.sum_congr rfl fun k _ => ?_)
  have e : idx_main_v1 (ix1 a) k = ix2 a k :=
    funext fun d => Fin.ext (by match d with | ⟨0, _⟩ => rfl | ⟨1, _⟩ => rfl)
  rw [e]

/-- The squared norms as a column, broadcast along the rows: entry `(a, b)` is row `a`'s. -/
theorem sqNormOfRow_apply (X : S4096x512.Idx → EReal) (a b : Fin 4096) :
    val_main_v4 (F := Ideal) X (ix2 a b) = val_main_v1 (F := Ideal) X (ix1 a) := by
  rw [val_main_v4_apply, val_main_v2_apply]
  exact congrArg _ (funext fun d => Fin.ext (by match d with | ⟨0, _⟩ => rfl))

/-- The squared norms as a row, broadcast down the columns: entry `(a, b)` is row `b`'s. -/
theorem sqNormOfCol_apply (X : S4096x512.Idx → EReal) (a b : Fin 4096) :
    val_main_v5 (F := Ideal) X (ix2 a b) = val_main_v1 (F := Ideal) X (ix1 b) := by
  rw [val_main_v5_apply, val_main_v3_apply]
  exact congrArg _ (funext fun d => Fin.ext (by match d with | ⟨0, _⟩ => rfl))

/-- The table times its transpose: entry `(a, b)` is the inner product of rows `a` and `b`. -/
theorem inner_apply (X : S4096x512.Idx → EReal) (a b : Fin 4096) :
    val_main_v8 (F := Ideal) X (ix2 a b) = ∑ k : Fin 512, X (ix2 a k) * X (ix2 b k) := by
  rw [val_main_v8_apply]
  refine Finset.sum_congr rfl fun k _ => ?_
  rw [val_main_v7_apply]
  have el : lidx_main_v8 (ix2 a b) k = ix2 a k :=
    funext fun d => Fin.ext (by match d with | ⟨0, _⟩ => rfl | ⟨1, _⟩ => rfl)
  have er : idx_main_v7 (ridx_main_v8 (ix2 a b) k) = ix2 b k :=
    funext fun d => Fin.ext (by match d with | ⟨0, _⟩ => rfl | ⟨1, _⟩ => rfl)
  rw [el, er]

/-- ONE ENTRY OF THE DISTANCE MATRIX, for a table of reals: the square root of the squared distance of rows `a` and
    `b`. The constant `2.0` is the real 2, the cut-off's `0.0` is 0, and the expanded formula is the squared distance. -/
theorem distMatrix_apply (x : S4096x512.Idx → ℝ) (a b : Fin 4096) :
    val_main_v14 (F := Ideal) (fun i => (x i : EReal)) (ix2 a b)
      = Ideal.sqrt (sqDist (fun i => (x i : EReal)) a b) := by
  rw [val_main_v14_apply, val_main_v13_apply, val_main_v11_apply, val_main_v6_apply, val_main_v10_apply,
    sqNormOfRow_apply, sqNormOfCol_apply, sqNorm_apply, sqNorm_apply, inner_apply,
    val_main_v9_apply, val_main_cst_0_apply, val_main_v12_apply, val_main_cst_1_apply]
  simp only [Ideal.hostUnary_sqrt_def, Ideal.maximumf_def, Ideal.subf_def, Ideal.addf_def, Ideal.mulf_def,
    Ideal.ofBits_def, Ideal.ofBits_zero_f32, ofBits_two]
  rw [gram_eq_sqDist]

/-- The start words side by side: column 0 of the 100 x 2 array is the first list of words. -/
theorem startWords_col0 (ids : S200.Idx → BitVec 32) (p : Fin 100) :
    val_main_v32 (F := Ideal) ids (ix2 p (0 : Fin 2)) = val_main_v24 (F := Ideal) ids (ix1 p) := by
  unfold val_main_v32
  rw [concatenate_pair_apply_left (t := S100x2) (s₁ := S100x1) (s₂ := S100x1) (1 : Fin 2) _ _ _ (ix2 p (0 : Fin 2)) rfl
    (ix2 p (0 : Fin 1))
    (fun b => by match b with | ⟨0, _⟩ => rfl | ⟨1, _⟩ => rfl)]
  rw [val_main_v30_apply]
  exact congrArg _ (funext fun d => Fin.ext (by match d with | ⟨0, _⟩ => rfl))

/-- Column 1 is the second list of words. -/
theorem startWords_col1 (ids : S200.Idx → BitVec 32) (p : Fin 100) :
    val_main_v32 (F := Ideal) ids (ix2 p (1 : Fin 2)) = val_main_v29 (F := Ideal) ids (ix1 p) := by
  unfold val_main_v32
  rw [concatenate_pair_apply_right (t := S100x2) (s₁ := S100x1) (s₂ := S100x1) (1 : Fin 2) _ _ _ (ix2 p (1 : Fin 2)) rfl rfl
    (ix2 p (0 : Fin 1))
    (fun b hb => by match b, hb with | ⟨0, _⟩, _ => rfl | ⟨1, _⟩, hb => exact absurd rfl hb) rfl]
  rw [val_main_v31_apply]
  exact congrArg _ (funext fun d => Fin.ext (by match d with | ⟨0, _⟩ => rfl))

/-- THE REFERENCE'S RESULT, for a table of reals: the distances between the rows the pairs of normalised start words
    name. Entry `i` of the 50 x 2 result is entry `pairOf i` of the picked list; the pick reads the distance matrix at
    the clamped words. -/
theorem reference_eq_dist (x : S4096x512.Idx → ℝ) (ids : S200.Idx → BitVec 32) :
    val_main_v34 (F := Ideal) (fun i => (x i : EReal)) ids
      = dist (fun i => (x i : EReal)) (val_main_v24 (F := Ideal) ids) (val_main_v29 (F := Ideal) ids) := by
  funext i
  rw [val_main_v34_apply]
  have e : idx_main_v34 i = ix1 (pairOf i) :=
    funext fun d => Fin.ext (by match d with | ⟨0, _⟩ => rfl)
  rw [e]
  unfold val_main_v33
  rw [pointGather_apply, distMatrix_apply, startWords_col0, startWords_col1]
  rfl

end Cert.PairDistance

end
-- ==== Proof.Finite.lean ====
/-
  The precondition, read back: every entry of the table is a real number.

  The precondition is one test, `all (|X| < +inf)`: the absolute value of every entry compared with the pattern of
  `+inf`, the comparisons' bits combined by `and` from the constant `true`. That combination is 1 only if every bit
  is, and on the extended reals `|x| < +inf` — `max x (-x)` strictly below the top — fails at both infinities, so it
  holds exactly of the coercions of reals.
-/
import proofs.«159841_j63642825392501_2_alg».proof.Pre_finite_inputs
import Idealize.ShloMosaic.Lib.ReduceAll
import Idealize.ShloMosaic.Lib.ValueIdx
import Idealize.ShloMosaic.PureOps.Ideal.Laws

noncomputable section

namespace Cert.PairDistance

open Idealize.ShloMosaic Idealize.ShloMosaic.ValueIdx

/-- An extended real whose absolute value is strictly below `+inf` is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

variable [Cert.Pre_finite_inputs.Facts]

/-- The scalar shape has one index. -/
instance scalarIdx_subsingleton : Subsingleton Cert.Pre_finite_inputs.S_.Idx := ⟨fun _ _ => funext fun d => d.elim0⟩

/-- Where the precondition holds, the table is a table of reals. -/
theorem reals_of_finite (X : FVec Ideal Cert.Pre_finite_inputs.S4096x512 .f32) (ids : IVec Cert.Pre_finite_inputs.S200 32)
    (h : Cert.Pre_finite_inputs.fn (F := Ideal) X ids = fun _ => 1#1) :
    ∃ x : Cert.Pre_finite_inputs.S4096x512.Idx → ℝ, X = fun i => (x i : EReal) := by
  have h0 := congrFun h ix0
  dsimp only [Cert.Pre_finite_inputs.fn] at h0
  have hall := Host.reduce_andi_all _ _ _ _ _ h0
  have htop : Ideal.ofBits .f32 0x7F800000#32 = ⊤ := by simp [Ideal.ofBits, Ideal.ieee]
  have hfin : ∀ i, ∃ r : ℝ, X i = (r : EReal) := fun i => by
    have hi : Ideal.cmp .olt (max (X i) (-(X i))) (Ideal.ofBits .f32 0x7F800000#32) = 1#1 := hall i
    rw [htop] at hi
    exact real_of_abs_lt_top (X i) hi
  choose x hx using hfin
  exact ⟨x, funext hx⟩

end Cert.PairDistance

end
-- ==== Proof.lean ====
/-
  Distances between selected rows of a table, computed two ways, are equal on the extended reals.

  Both programs take a table `X` of 4096 rows of 512 entries and 200 start words, read the words as 100 pairs, wrap a
  negative word once by the table's height, and clamp it to a row. The kernel's program gathers the two rows of each
  pair and computes sqrt (sum of squared differences) directly, at one grid point on whole-array blocks. The reference
  builds the whole matrix of row distances by the expanded formula sqrt (max (|u|^2 + |v|^2 - 2 <u, v>, 0)) and picks
  the 100 entries the pairs name. Both results are then laid out as 50 rows of 2.

  The two programs normalise and clamp the start words by the same operations, so they read the same rows whatever
  the words are. For a table of REALS — which the precondition gives — the expanded formula is the sum of squared
  differences, a number that is not negative, so the cut-off at 0 is idle; the square root is one function on both sides.
  Infinite entries are where the expansion would fail (`inf - inf`), which is why finiteness is used.

  The frames of the two kernel programs are the generated ones; the reference's frame is its generated run with the
  result dropped. Nothing was rewritten by the idealization, so `preserves` has nothing to state.
-/
import proofs.«159841_j63642825392501_2_alg».proof.Defs
import proofs.«159841_j63642825392501_2_alg».proof.Proof.Gen.Kernel
import proofs.«159841_j63642825392501_2_alg».proof.Proof.Gen.Kernel.Skeleton
import proofs.«159841_j63642825392501_2_alg».proof.Proof.Gen.Kernel.Launch
import proofs.«159841_j63642825392501_2_alg».proof.Proof.Gen.Kernel.Points
import proofs.«159841_j63642825392501_2_alg».proof.Proof.Gen.Kernel.Frame
import proofs.«159841_j63642825392501_2_alg».proof.Proof.Gen.KernelIdeal
import proofs.«159841_j63642825392501_2_alg».proof.Proof.Gen.KernelIdeal.Skeleton
import proofs.«159841_j63642825392501_2_alg».proof.Proof.Gen.KernelIdeal.Launch
import proofs.«159841_j63642825392501_2_alg».proof.Proof.Gen.KernelIdeal.Points
import proofs.«159841_j63642825392501_2_alg».proof.Proof.Gen.KernelIdeal.Frame
import proofs.«159841_j63642825392501_2_alg».proof.Proof.Gen.ReferenceIdeal
import proofs.«159841_j63642825392501_2_alg».proof.Proof.Gen.Pre_finite_inputs
import proofs.«159841_j63642825392501_2_alg».proof.Proof.Gen.ReferenceIdeal.Run
import proofs.«159841_j63642825392501_2_alg».proof.Proof.Gen.ReferenceIdeal.Read
import proofs.«159841_j63642825392501_2_alg».proof.Proof.KernelValue
import proofs.«159841_j63642825392501_2_alg».proof.Proof.ReferenceValue
import proofs.«159841_j63642825392501_2_alg».proof.Proof.Finite
import Idealize.ShloMosaic.Adequacy
import Idealize.ShloMosaic.Init

noncomputable section

namespace Cert.Proof

open Idealize.ShloMosaic Idealize.SL.Sem Cert.PairDistance

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two programs read the same rows -/

/-- The reference's wrapped first words are the kernel program's: the same split of the 200 words into pairs, the same
    comparison with zero, the same shift by 4096. -/
theorem firstWords_eq (ids : Cert.ReferenceIdeal.S200.Idx → BitVec 32) :
    Cert.ReferenceIdeal.Read.val_main_v24 (F := Ideal) ids = wrapNegative (firstWords ids) := rfl

/-- Likewise the second words. -/
theorem secondWords_eq (ids : Cert.ReferenceIdeal.S200.Idx → BitVec 32) :
    Cert.ReferenceIdeal.Read.val_main_v29 (F := Ideal) ids = wrapNegative (secondWords ids) := rfl

/-! ## Equal results -/

/-- From memories that agree on the table and the words, under the precondition, both programs end with the 50 x 2
    array of distances between the rows the pairs name. -/
theorem algebraic : Cert.algebraic_KernelIdeal_ReferenceIdeal := by
  intro m ρ m' ρ' hpre hagree
  refine ⟨fun c => dist (m ((c.tc : Thread Cert.KernelIdeal.nD Cert.KernelIdeal.τ).loc Cert.KernelIdeal.main_arg0))
      (wrapNegative (firstWords (m ((c.tc : Thread Cert.KernelIdeal.nD Cert.KernelIdeal.τ).loc Cert.KernelIdeal.main_arg1))))
      (wrapNegative (secondWords (m ((c.tc : Thread Cert.KernelIdeal.nD Cert.KernelIdeal.τ).loc Cert.KernelIdeal.main_arg1)))),
    kernel_run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v34_eq _ _).trans ?_)
  beta_reduce
  rw [(hagree c).1, (hagree c).2]
  obtain ⟨x, hx⟩ := reals_of_finite _ _ (hpre c)
  rw [hx]
  exact (reference_eq_dist x _).trans (by rw [firstWords_eq, secondWords_eq])

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
